-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_c)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_c) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_c) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x768 : Shape := ⟨2, ![32768, 768]⟩
abbrev S64x768 : Shape := ⟨2, ![64, 768]⟩
abbrev S_ : Shape := ⟨0, ![]⟩

class Facts : Prop where
  bcast_S_S32768x768 : S_.BroadcastsInDim S32768x768 (![] : Fin 0 → Fin S32768x768.rank)
  reducesTo_S32768x768_S_d0_1 : S32768x768.ReducesTo [0, 1] S_
  h_S_ : 0 < S_.numel
  bcast_S_S64x768 : S_.BroadcastsInDim S64x768 (![] : Fin 0 → Fin S64x768.rank)
  reducesTo_S64x768_S_d0_1 : S64x768.ReducesTo [0, 1] S_

variable [Facts]

def fn {F : FTy → Type} [FloatOps F] (main_arg0 : FVec F S32768x768 .f32) (main_arg1 : FVec F S64x768 .f32) : IVec S_ 1 :=
  let main_v0 : FVec F S32768x768 .f32 := Host.absf main_arg0
  let main_cst : FVec F S_ .f32 := constant S_ .f32 0x7F800000#32
  let main_v1 : FVec F S32768x768 .f32 := broadcastInDim S32768x768 ![] bcast_S_S32768x768 main_cst
  let main_v2 : IVec S32768x768 1 := cmpf .olt main_v0 main_v1
  let main_c : IVec S_ 1 := constantI S_ 1 1#1
  let main_v3 : IVec S_ 1 := (fun x v => Host.reduce IntOp.andi x v reducesTo_S32768x768_S_d0_1 h_S_) main_v2 main_c
  let main_v4 : FVec F S64x768 .f32 := Host.absf main_arg1
  let main_cst_0 : FVec F S_ .f32 := constant S_ .f32 0x7F800000#32
  let main_v5 : FVec F S64x768 .f32 := broadcastInDim S64x768 ![] bcast_S_S64x768 main_cst_0
  let main_v6 : IVec S64x768 1 := cmpf .olt main_v4 main_v5
  let main_c_1 : IVec S_ 1 := constantI S_ 1 1#1
  let main_v7 : IVec S_ 1 := (fun x v => Host.reduce IntOp.andi x v reducesTo_S64x768_S_d0_1 h_S_) main_v6 main_c_1
  let main_v8 : IVec S_ 1 := andi main_v3 main_v7
  main_v8
-- ==== Kernel.lean ====
abbrev S32768x768 : Shape := ⟨2, ![32768, 768]⟩
abbrev S64x768 : Shape := ⟨2, ![64, 768]⟩
abbrev S64x32768 : Shape := ⟨2, ![64, 32768]⟩
abbrev S4096x768 : Shape := ⟨2, ![4096, 768]⟩
abbrev S64x4096 : Shape := ⟨2, ![64, 4096]⟩
abbrev S32768x64 : Shape := ⟨2, ![32768, 64]⟩
abbrev S_ : Shape := ⟨0, ![]⟩

abbrev nBuf : Space → Nat
  | .hbm => 5
  | .vmem => 5
  | .smem => 0
  | _ => 0

abbrev bufTy : (tb : Table) → Fin (tcTables nBuf tb) → BufTy
  | .hbm, ⟨0, _⟩ => ⟨S32768x768, .f32⟩
  | .hbm, ⟨1, _⟩ => ⟨S64x768, .f32⟩
  | .hbm, ⟨2, _⟩ => ⟨S64x32768, .f32⟩
  | .hbm, ⟨3, _⟩ => ⟨S32768x64, .f32⟩
  | .hbm, ⟨4, _⟩ => ⟨S_, .i32⟩
  | .local _ .vmem, ⟨0, _⟩ => ⟨S4096x768, .f32⟩
  | .local _ .vmem, ⟨1, _⟩ => ⟨S4096x768, .f32⟩
  | .local _ .vmem, ⟨2, _⟩ => ⟨S64x768, .f32⟩
  | .local _ .vmem, ⟨3, _⟩ => ⟨S64x4096, .f32⟩
  | .local _ .vmem, ⟨4, _⟩ => ⟨S64x4096, .f32⟩
  | _, _ => ⟨S32768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S64x768_S64x768_0_0 : ∀ a, (![0, 0] : Fin 2 → Nat) a + S64x768.size a ≤ S64x768.size a
  h_S64x768 : 0 < S64x768.numel
  inb_S4096x768_S4096x768_0_0 : ∀ a, (![0, 0] : Fin 2 → Nat) a + S4096x768.size a ≤ S4096x768.size a
  h_S4096x768 : 0 < S4096x768.numel
  inb_S64x4096_S64x4096_0_0 : ∀ a, (![0, 0] : Fin 2 → Nat) a + S64x4096.size a ≤ S64x4096.size a
  h_S64x4096 : 0 < S64x4096.numel
  transposes_S64x32768_S32768x64_1_0 : S64x32768.Transposes [1, 0] S32768x64
  dot_S64x768_S4096x768_S64x4096_1_1_0_0_n_n_wf : DotDims.WF S64x768 S4096x768 S64x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x768.size a ≤ S32768x768.size a
  hwx0_0 : ∀ i : grid0.Coords, EltTy.bits .f32 = 32 ∨ (Rect.block (s := S32768x768) S4096x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x768.size a ≤ S64x768.size a
  hwx0_1 : ∀ i : grid0.Coords, EltTy.bits .f32 = 32 ∨ (Rect.block (s := S64x768) S64x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x4096.size a ≤ S64x32768.size a
  hwx0_2 : ∀ i : grid0.Coords, EltTy.bits .f32 = 32 ∨ (Rect.block (s := S64x32768) S64x4096.size (cc0_transform_2 i) (hinb0_2 i)).WholeWords (EltTy.packing .f32)

variable [Facts₀]

def dot_S64x768_S4096x768_S64x4096_1_1_0_0_n_n : DotDims S64x768 S4096x768 S64x4096 where
  lhsContracting := [1]
  rhsContracting := [1]
  lhsNonContracting := [0]
  rhsNonContracting := [0]
  lhsBatch := []
  rhsBatch := []
  wf := dot_S64x768_S4096x768_S64x4096_1_1_0_0_n_n_wf

abbrev win0_0 : Pipeline.Window sig grid0 :=
  Pipeline.Window.ofSpec (Memref.whole main_arg0) S4096x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32768x768 : Shape := ⟨2, ![32768, 768]⟩
abbrev S64x768 : Shape := ⟨2, ![64, 768]⟩
abbrev S768x64 : Shape := ⟨2, ![768, 64]⟩
abbrev S32768x64 : Shape := ⟨2, ![32768, 64]⟩
abbrev S_ : Shape := ⟨0, ![]⟩

abbrev nBuf : Space → Nat
  | .hbm => 5
  | .vmem => 0
  | .smem => 0
  | _ => 0

abbrev bufTy : (tb : Table) → Fin (tcTables nBuf tb) → BufTy
  | .hbm, ⟨0, _⟩ => ⟨S32768x768, .f32⟩
  | .hbm, ⟨1, _⟩ => ⟨S64x768, .f32⟩
  | .hbm, ⟨2, _⟩ => ⟨S768x64, .f32⟩
  | .hbm, ⟨3, _⟩ => ⟨S32768x64, .f32⟩
  | .hbm, ⟨4, _⟩ => ⟨S_, .i32⟩
  | _, _ => ⟨S32768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩

abbrev nD : Nat := 1
abbrev τ : Topo := Topo.v7x

variable {F : FTy → Type} [FloatOps F]

class Facts₀ : Prop where
  transposes_S64x768_S768x64_1_0 : S64x768.Transposes [1, 0] S768x64
  dot_S32768x768_S768x64_S32768x64_1_0_0_1_n_n_wf : DotDims.WF S32768x768 S768x64 S32768x64 [1] [0] [0] [1] [] []

variable [Facts₀]

def dot_S32768x768_S768x64_S32768x64_1_0_0_1_n_n : DotDims S32768x768 S768x64 S32768x64 where
  lhsContracting := [1]
  rhsContracting := [0]
  lhsNonContracting := [0]
  rhsNonContracting := [1]
  lhsBatch := []
  rhsBatch := []
  wf := dot_S32768x768_S768x64_S32768x64_1_0_0_1_n_n_wf

class Facts : Prop extends Facts₀ where

variable [Facts]
-- ==== Proof.LibMatmulRead.lean ====
/-
  A matrix product and a transpose read entry by entry.

  Three facts about rank-2 arrays of extended reals, each stated at an index given by its two coordinates:
    • the transpose of an `[a, b]` array reads, at `(q, p)`, the operand at `(p, q)`;
    • a matrix product that contracts the second axis of an `[a, k]` array with the first axis of a `[k, b]`
      array, started from the zero accumulator, reads at `(p, q)` the sum over `d` of the left operand at
      `(p, d)` times the right operand at `(d, q)`;
    • so the product of an `[a, k]` array with the TRANSPOSE of a `[b, k]` array reads at `(p, q)` the inner
      product of row `p` of the first with row `q` of the second.
  The record of dimension numbers is any one whose six axis lists are the plain product's; at a literal record each
  of the six hypotheses is `rfl`.
-/
import Idealize.ShloMosaic.PureOps.Ideal.Laws
import Idealize.ShloMosaic.Lib.Pipeline.Value
import Idealize.ShloMosaic.Lib.ValueIdx

namespace Idealize.ShloMosaic.ValueIdx

open Idealize.ShloMosaic

/-- The transpose of an `[a, b]` array reads, at `(q, p)`, the operand at `(p, q)`. -/
theorem transpose_ab_ba_apply {α : Type} {a b : ℕ} (x : (⟨2, ![a, b]⟩ : Shape).Idx → α)
    (h : (⟨2, ![a, b]⟩ : Shape).Transposes [1, 0] ⟨2, ![b, a]⟩) (q : Fin b) (p : Fin a) :
    transpose ⟨2, ![b, a]⟩ [1, 0] x h (ix2 q p) = x (ix2 p q) :=
  transpose_apply [1, 0] x h (ix2 q p) (ix2 p q) fun ax => by
    match ax with
    | ⟨0, _⟩ => rfl
    | ⟨1, _⟩ => rfl

/-- A product contracting the second axis of the left operand with the first axis of the right one, from the zero
    accumulator, read at `(p, q)`: the sum over the contracted coordinate. -/
theorem matmul_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![k, b]⟩ φ₂)
    (p : Fin a) (q : Fin b) :
    matmul D prec x w (constant (F := Ideal) ⟨2, ![a, b]⟩ .f32 0x00000000#32) (ix2 p q)
      = ∑ d : Fin k, x (ix2 p d) * w (ix2 d q) := by
  obtain ⟨lc, rc, ln, rn, lb, rb, wf⟩ := D
  dsimp only at hlc hrc hln hrn hlb hrb
  subst hlc hrc hln hrn hlb hrb
  refine (Ideal.matmul_constant_zero_apply _ prec x w (ix2 p q)).trans ?_
  refine (Equiv.sum_comp (contrEquiv1 _ k rfl rfl).symm _).symm.trans ?_
  refine Finset.sum_congr rfl fun d _ => ?_
  refine congrArg₂ (· * ·) (congrArg x (funext fun ax => Fin.ext ?_)) (congrArg w (funext fun ax => Fin.ext ?_))
  · match ax with
    | ⟨0, _⟩ => rfl
    | ⟨1, _⟩ => exact (DotDims.lhsIdx_val_of_single _ rfl _ _).trans (contrEquiv1_symm_val _ k rfl rfl d)
  · match ax with
    | ⟨0, _⟩ => exact (DotDims.rhsIdx_val_of_single _ rfl _ _).trans (contrEquiv1_symm_val _ k rfl rfl d)
    | ⟨1, _⟩ => rfl

/-- The product of an `[a, k]` array with the transpose of a `[b, k]` array, from the zero accumulator, read at
    `(p, q)`: the inner product of row `p` of the first with row `q` of the second. -/
theorem matmul_transpose_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![b, k]⟩ φ₂)
    (h : (⟨2, ![b, k]⟩ : Shape).Transposes [1, 0] ⟨2, ![k, b]⟩) (p : Fin a) (q : Fin b) :
    matmul D prec x (transpose ⟨2, ![k, b]⟩ [1, 0] w h) (constant (F := Ideal) ⟨2, ![a, b]⟩ .f32 0x00000000#32) (ix2 p q)
      = ∑ d : Fin k, x (ix2 p d) * w (ix2 q d) :=
  (matmul_ix2_apply D hlc hrc hln hrn hlb hrb prec x _ p q).trans
    (Finset.sum_congr rfl fun d _ => congrArg (x (ix2 p d) * ·) (transpose_ab_ba_apply w h d q))

end Idealize.ShloMosaic.ValueIdx
-- ==== Proof.GateSpec.lean ====
/-
  The gate's logits, entry by entry, on the extended reals.

  For `x` of shape `[32768, 768]` and `W` of shape `[64, 768]` the logits `x · Wᵀ` have, at row `r` and
  expert `e`, the inner product of row `r` of `x` with row `e` of `W`:  `∑ d, x[r, d] * W[e, d]`  (`logits`).
  The same numbers laid out expert-major, `W · xᵀ` of shape `[64, 32768]`, have at `(e, r)` the sum
  `∑ d, W[e, d] * x[r, d]`  (`logitsT`).  The transpose of the second array is the first, term by term, because
  the product of two extended reals commutes; no sum is reordered and nothing needs the entries to be finite.
-/
import Idealize.ShloMosaic.PureOps.Ideal
import Idealize.ShloMosaic.Lib.ValueIdx
import proofs.«119512_g55542517072588_cont_9to1c4b_208_9_alg».proof.Proof.LibMatmulRead

noncomputable section

namespace Cert.Gate

open Idealize.ShloMosaic Idealize.ShloMosaic.ValueIdx

/-- The logits `x · Wᵀ`: at `(r, e)` the inner product of row `r` of `x` with row `e` of `W`. -/
def logits (x : FVec Ideal ⟨2, ![32768, 768]⟩ .f32) (W : FVec Ideal ⟨2, ![64, 768]⟩ .f32) :
    FVec Ideal ⟨2, ![32768, 64]⟩ .f32 :=
  fun i => ∑ d : Fin 768, x (ix2 (i 0) d) * W (ix2 (i 1) d)

/-- The logits laid out expert-major, `W · xᵀ`: at `(e, r)` the inner product of row `e` of `W` with row `r` of `x`. -/
def logitsT (x : FVec Ideal ⟨2, ![32768, 768]⟩ .f32) (W : FVec Ideal ⟨2, ![64, 768]⟩ .f32) :
    FVec Ideal ⟨2, ![64, 32768]⟩ .f32 :=
  fun j => ∑ d : Fin 768, W (ix2 (j 0) d) * x (ix2 (j 1) d)

/-- Transposing the expert-major layout gives the logits: each term `W[e, d] * x[r, d]` is `x[r, d] * W[e, d]`. -/
theorem transpose_logitsT (x : FVec Ideal ⟨2, ![32768, 768]⟩ .f32) (W : FVec Ideal ⟨2, ![64, 768]⟩ .f32)
    (h : (⟨2, ![64, 32768]⟩ : Shape).Transposes [1, 0] ⟨2, ![32768, 64]⟩) :
    transpose ⟨2, ![32768, 64]⟩ [1, 0] (logitsT x W) h = logits x W := by
  funext i
  obtain ⟨r, e, rfl⟩ : ∃ (r : Fin 32768) (e : Fin 64), i = ix2 r e := ⟨i 0, i 1, eq_ix2 i⟩
  rw [transpose_ab_ba_apply]
  exact Finset.sum_congr rfl fun d _ => mul_comm _ _

end Cert.Gate

end
-- ==== Proof.RefValue.lean ====
/-
  The reference's result is the logits.

  The reference transposes `W` to `[768, 64]` and contracts the second axis of `x` with the first axis of that
  transpose. Entry `(r, e)` of the result is therefore `∑ k, x[r, k] * Wᵀ[k, e]`, and `Wᵀ[k, e]` is `W[e, k]`:
  the inner product of row `r` of `x` with row `e` of `W`, which is how the logits are specified.
-/
import proofs.«119512_g55542517072588_cont_9to1c4b_208_9_alg».proof.Proof.Gen.ReferenceIdeal.Read
import proofs.«119512_g55542517072588_cont_9to1c4b_208_9_alg».proof.Proof.GateSpec

noncomputable section

namespace Cert.ReferenceIdeal.RefValue

open Cert.ReferenceIdeal Cert.ReferenceIdeal.Gen Idealize.ShloMosaic Idealize.ShloMosaic.ValueIdx

/-- The reference's matrix product of `x` with the transposed `W`, read entry by entry, is the logits. -/
theorem val_eq_logits (x : (⟨S32768x768, .f32⟩ : BufTy).Contents (Elt Ideal)) (W : (⟨S64x768, .f32⟩ : BufTy).Contents (Elt Ideal)) :
    Read.val_main_v1 (F := Ideal) x W = Cert.Gate.logits x W := by
  funext i
  rw [Read.val_main_v1_apply]
  unfold Cert.Gate.logits
  refine Finset.sum_congr rfl fun k _ => ?_
  rw [Read.val_main_v0_apply]
  refine congrArg₂ (· * ·) (congrArg x (funext fun a => ?_)) (congrArg W (funext fun a => ?_))
  · match a with
    | ⟨0, _⟩ => rfl
    | ⟨1, _⟩ => rfl
  · match a with
    | ⟨0, _⟩ => rfl
    | ⟨1, _⟩ => rfl

end Cert.ReferenceIdeal.RefValue

end
-- ==== Proof.LibMatmulRowsRead.lean ====
/-
  A matrix product of two arrays that share their SECOND axis, read entry by entry.

  A product that contracts the second axis of an `[a, k]` array with the second axis of a `[b, k]` array,
  started from the zero accumulator, reads at `(p, q)` the inner product of row `p` of the first with row `q`
  of the second: the sum over `d` of the left operand at `(p, d)` times the right operand at `(q, d)`. (This is
  the product of the first array with the transpose of the second, with no transpose written.)
  The record of dimension numbers is any one whose six axis lists are those of this contraction; at a literal
  record each of the six hypotheses is `rfl`.
-/
import Idealize.ShloMosaic.PureOps.Ideal.Laws
import Idealize.ShloMosaic.Lib.Pipeline.Value
import Idealize.ShloMosaic.Lib.ValueIdx

namespace Idealize.ShloMosaic.ValueIdx

open Idealize.ShloMosaic

/-- A product contracting the second axis of the left operand with the second axis of the right one, from the zero
    accumulator, read at `(p, q)`: the inner product of row `p` of the left operand with row `q` of the right one. -/
theorem matmul_rows_ix2_apply {a k b : ℕ} {φ₁ φ₂ : FTy} (D : DotDims ⟨2, ![a, k]⟩ ⟨2, ![b, k]⟩ ⟨2, ![a, b]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision) (x : FVec Ideal ⟨2, ![a, k]⟩ φ₁) (w : FVec Ideal ⟨2, ![b, k]⟩ φ₂)
    (p : Fin a) (q : Fin b) :
    matmul D prec x w (constant (F := Ideal) ⟨2, ![a, b]⟩ .f32 0x00000000#32) (ix2 p q)
      = ∑ d : Fin k, x (ix2 p d) * w (ix2 q d) := by
  obtain ⟨lc, rc, ln, rn, lb, rb, wf⟩ := D
  dsimp only at hlc hrc hln hrn hlb hrb
  subst hlc hrc hln hrn hlb hrb
  refine (Ideal.matmul_constant_zero_apply _ prec x w (ix2 p q)).trans ?_
  refine (Equiv.sum_comp (contrEquiv1 _ k rfl rfl).symm _).symm.trans ?_
  refine Finset.sum_congr rfl fun d _ => ?_
  refine congrArg₂ (· * ·) (congrArg x (funext fun ax => Fin.ext ?_)) (congrArg w (funext fun ax => Fin.ext ?_))
  · match ax with
    | ⟨0, _⟩ => rfl
    | ⟨1, _⟩ => exact (DotDims.lhsIdx_val_of_single _ rfl _ _).trans (contrEquiv1_symm_val _ k rfl rfl d)
  · match ax with
    | ⟨0, _⟩ => rfl
    | ⟨1, _⟩ => exact (DotDims.rhsIdx_val_of_single _ rfl _ _).trans (contrEquiv1_symm_val _ k rfl rfl d)

end Idealize.ShloMosaic.ValueIdx
-- ==== Proof.KernelBlocks.lean ====
/-
  What the kernel's output array holds after the run: the logits laid out expert-major.

  The grid has eight points. Point `t` reads rows `4096·t … 4096·t + 4095` of `x` (a `[4096, 768]` block) and the
  whole of `W`, and writes columns `4096·t … 4096·t + 4095` of the `[64, 32768]` output: entry `(e, q)` of the
  block it writes is the inner product of row `e` of `W` with row `q` of the block of `x`, that is with row
  `4096·t + q` of `x`. So each written block is the matching block of ONE array, `W · xᵀ`; the eight column
  blocks tile the output (column `r` lies in the block of point `r / 4096`), and the array ends holding `W · xᵀ`.
-/
import proofs.«119512_g55542517072588_cont_9to1c4b_208_9_alg».proof.Proof.Gen.KernelIdeal.Frame
import proofs.«119512_g55542517072588_cont_9to1c4b_208_9_alg».proof.Proof.GateSpec
import proofs.«119512_g55542517072588_cont_9to1c4b_208_9_alg».proof.Proof.LibMatmulRowsRead
import Idealize.ShloMosaic.Lib.Pipeline.Value
import Idealize.ShloMosaic.Lib.ValueIdx

set_option maxRecDepth 16384

noncomputable section

namespace Cert.KernelIdeal.GateValue

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-- The whole-block rectangles start at the origin. -/
theorem origin : (![0, 0] : Fin 2 → Nat) = fun _ => 0 := funext fun a => by fin_cases a <;> rfl

/-- The body's product at `(e, q)`: row `e` of the `W` block against row `q` of the `x` block. -/
theorem product_apply (w : Vec Ideal S64x768 .f32) (xb : Vec Ideal S4096x768 .f32) (e : Fin 64) (q : Fin 4096) :
    k0_pay1 (F := Ideal) w xb (ix2 e q) = ∑ d : Fin 768, w (ix2 e d) * xb (ix2 q d) := by
  unfold k0_pay1
  exact matmul_rows_ix2_apply dot_S64x768_S4096x768_S64x4096_1_1_0_0_n_n rfl rfl rfl rfl rfl rfl none w xb e q

/-- Where each window's block sits at point `t`: the `x` block at block row `t`, `W` whole, the output block at
    block column `t`. -/
theorem block_places : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val :=
  (by decide +kernel : ∀ t : Fin grid0.N, _)

/-- What point `t` writes back is block `t` of `W · xᵀ` of the two argument arrays. -/
theorem written_eq (c : Dev nD) (t : Fin cfg0.N) :
    (dats m 0 c).flushed 2 t
      = ((cfg0.win 2).blk t).view.read (Elt Ideal) (Cert.Gate.logitsT (V m c main_arg0) (V m c main_arg1)) := by
  show (cfg0.win 2).cut (grid0.coords t) ((dats m 0 c).after 2 t) = _
  rw [after0_2]
  unfold out0_2
  rw [View.canon_unit_zero origin]
  simp only [View.ld_unit_zero (S := S64x768) origin, View.ld_unit_zero (S := S4096x768) origin]
  obtain ⟨e0, e1, e2, e3, e4, e5⟩ := block_places t
  funext j
  obtain ⟨e, q, rfl⟩ : ∃ (e : Fin 64) (q : Fin 4096), j = ix2 e q := ⟨j 0, j 1, eq_ix2 j⟩
  refine (product_apply (iblk m c 1 t) (iblk m c 0 t) e q).trans ?_
  -- the same sum for ANY two arrays read through the three blocks; then at the two argument arrays
  have at_arrays : ∀ (X : FVec Ideal S32768x768 .f32) (Wa : FVec Ideal S64x768 .f32),
      (∑ d : Fin 768, Wa (((cfg0.win 1).blk t).view.emb (ix2 e d)) * X (((cfg0.win 0).blk t).view.emb (ix2 q d)))
        = Cert.Gate.logitsT X Wa (((cfg0.win 2).blk t).view.emb (ix2 e q)) := by
    intro X Wa
    unfold Cert.Gate.logitsT
    refine Finset.sum_congr rfl fun d _ => ?_
    have hW : ((cfg0.win 1).blk t).view.emb (ix2 e d) = ix2 ((((cfg0.win 2).blk t).view.emb (ix2 e q)) 0) d := by
      funext a; apply Fin.ext
      match a with
      | ⟨0, _⟩ => show win0_1.index t (0 : Fin 2) * 64 + 1 * e.val = win0_2.index t (0 : Fin 2) * 64 + 1 * e.val; omega
      | ⟨1, _⟩ => show win0_1.index t (1 : Fin 2) * 768 + 1 * d.val = d.val; omega
    have hx : ((cfg0.win 0).blk t).view.emb (ix2 q d) = ix2 ((((cfg0.win 2).blk t).view.emb (ix2 e q)) 1) d := by
      funext a; apply Fin.ext
      match a with
      | ⟨0, _⟩ => show win0_0.index t (0 : Fin 2) * 4096 + 1 * q.val = win0_2.index t (1 : Fin 2) * 4096 + 1 * q.val; omega
      | ⟨1, _⟩ => show win0_0.index t (1 : Fin 2) * 768 + 1 * d.val = d.val; omega
    exact congrArg₂ (· * ·) (congrArg Wa hW) (congrArg X hx)
  exact at_arrays (V m c main_arg0) (V m c main_arg1)

/-- An index of the output array is in point `t`'s block iff each coordinate is in the block's range on its axis. -/
theorem mem_block (t : Fin cfg0.N) (i : S64x32768.Idx) :
    i ∈ ((cfg0.win 2).blk t).view.set ↔ ∀ a : Fin 2, win0_2.index t a * S64x4096.size a ≤ (i a).val
      ∧ (i a).val < win0_2.index t a * S64x4096.size a + S64x4096.size a := by
  show i ∈ ((View.whole main_v0).slice (win0_2.rect t)).set ↔ _
  rw [View.set_slice_whole, Rect.mem_set_unit]
  exact Iff.rfl

/-- The eight column blocks tile the output: column `r` is in the block of point `r / 4096`. -/
theorem tiled (i : S64x32768.Idx) :
    ∃ t : Fin cfg0.N, (cfg0.win 2).flush t = true ∧ i ∈ ((cfg0.win 2).blk t).view.set := by
  have hi0 : (i 0).val < 64 := (i 0).isLt
  have hi1 : (i 1).val < 32768 := (i 1).isLt
  have hN : cfg0.N = 8 := N_0
  obtain ⟨t, ht⟩ : ∃ t : Fin cfg0.N, t.val = (i 1).val / 4096 := ⟨⟨(i 1).val / 4096, by omega⟩, rfl⟩
  obtain ⟨e0, e1, e2, e3, e4, e5⟩ := block_places t
  refine ⟨t, flush0_2 t, ?_⟩
  rw [mem_block]
  intro a
  match a with
  | ⟨0, _⟩ => show win0_2.index t (0 : Fin 2) * 64 ≤ (i 0).val ∧ (i 0).val < win0_2.index t (0 : Fin 2) * 64 + 64; omega
  | ⟨1, _⟩ => show win0_2.index t (1 : Fin 2) * 4096 ≤ (i 1).val ∧ (i 1).val < win0_2.index t (1 : Fin 2) * 4096 + 4096; omega

/-- The output array after the run is `W · xᵀ` of the two argument arrays. -/
theorem final (c : Dev nD) :
    (dats m 0 c).arrAt 2 cfg0.N
      = Cert.Gate.logitsT (m ((c : Thread nD τ).loc main_arg0)) (m ((c : Thread nD τ).loc main_arg1)) :=
  (dats m 0 c).arrAt_eq_of_cover 2 (Cert.Gate.logitsT (V m c main_arg0) (V m c main_arg1))
    (fun t _ => written_eq m c t) tiled

end Cert.KernelIdeal.GateValue

end
-- ==== Proof.KernelTail.lean ====
/-
  What follows the region: a transpose and a constant.

  After its one region the program applies two more operations: its first result is the transpose of the region's
  `[64, 32768]` output array, and its second result is the integer constant `2`. Neither result buffer is an array
  of the region, so each ends holding exactly what these two operations compute from the arrays as the region left
  them; the two argument arrays are inputs of the region and end as they began.
-/
import proofs.«119512_g55542517072588_cont_9to1c4b_208_9_alg».proof.Proof.Gen.KernelIdeal.Frame
import Idealize.ShloMosaic.Lib.StableHlo.Run
import Idealize.ShloMosaic.Lib.Pipeline.Frame
import Idealize.ShloMosaic.Lib.Pipeline.FrameSuffix

set_option maxRecDepth 16384

noncomputable section

namespace Cert.KernelIdeal.Tail

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo

variable {F : FTy → Type} [FloatOps F]

variable (m : (ℓ : Loc nD τ sig) → Buf (Elt F) ℓ) (ρ : Dev nD → PrngReg)

/-- The transposed result is unscoped and is no window's array. -/
theorem v1_rest : main_v1 ∈ Pipeline.restRefs sig spec0 :=
  Pipeline.mem_restRefs_of main_v1 rfl (fun w => by fin_cases w <;> decide)

/-- The constant's buffer is unscoped and is no window's array. -/
theorem c_rest : main_c ∈ Pipeline.restRefs sig spec0 :=
  Pipeline.mem_restRefs_of main_c rfl (fun w => by fin_cases w <;> decide)

/-- After the two operations that follow the region, the transposed result is the transpose of the
    region's output array. -/
theorem tail_v1 (c : Dev nD) :
    Pipeline.afterTail₀ cfgs (Gen.dats m) 0 (Gen.V0 m) [hostOps1] c main_v1
      = transpose S32768x64 [1, 0] ((Gen.dats m 0 c).arrAt 2 cfg0.N) transposes_S64x32768_S32768x64_1_0 := by
  unfold Pipeline.afterTail₀
  show StableHlo.after hostOps1 _ (Proc.devRef .tc main_v1) = _
  after_results
  exact congrArg (fun a => transpose S32768x64 [1, 0] a transposes_S64x32768_S32768x64_1_0)
    (Pipeline.withArrays_arr spec0 launch0.win.arr_inj c (Gen.V0 m c) (fun w => (Gen.dats m 0 c).arrAt w (cfgs 0).N) 2)

/-- After them, the constant's buffer holds the constant. -/
theorem tail_c (c : Dev nD) :
    Pipeline.afterTail₀ cfgs (Gen.dats m) 0 (Gen.V0 m) [hostOps1] c main_c = constantI S_ 32 2#32 := by
  unfold Pipeline.afterTail₀
  show StableHlo.after hostOps1 _ (Proc.devRef .tc main_c) = _
  after_results

/-- Every weakly fair execution of the whole program terminates, with the transposed result at the transpose of the
    region's output array, the constant's buffer at the constant, and the two argument arrays as launched. -/
theorem run_named (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v1)
          = transpose S32768x64 [1, 0] ((Gen.dats m 0 c).arrAt 2 cfg0.N) transposes_S64x32768_S32768x64_1_0
      ∧ r.2.mem ((c.tc : Thread nD τ).loc main_c) = constantI S_ 32 2#32
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_v1 v1_rest).trans (tail_v1 m c),
      ((h c).2 main_c c_rest).trans (tail_c m c),
      ((h c).1 0).trans (((Gen.dats m 0 c).arrAt_in 0 rfl _).trans ((Gen.A_eq m c 0).trans (Gen.V_main_arg0 m c))),
      ((h c).1 1).trans (((Gen.dats m 0 c).arrAt_in 1 rfl _).trans ((Gen.A_eq m c 1).trans (Gen.V_main_arg1 m c)))⟩)
    (Gen.run_main m ρ)

end Cert.KernelIdeal.Tail

end
-- ==== Proof.KernelRun.lean ====
/-
  The kernel's run, with its results named.

  After the region the output array holds `W · xᵀ` (expert-major, `[64, 32768]`); the program then transposes it
  into its first result and writes the integer constant `2` into its second. The transpose of `W · xᵀ` is the
  logits `x · Wᵀ`, so every execution ends with the first result at the logits of the two argument arrays, the
  second at the constant, and the argument arrays as they were.
-/
import proofs.«119512_g55542517072588_cont_9to1c4b_208_9_alg».proof.Proof.KernelBlocks
import proofs.«119512_g55542517072588_cont_9to1c4b_208_9_alg».proof.Proof.KernelTail

noncomputable section

namespace Cert.KernelIdeal.GateValue

open Cert.KernelIdeal Cert.KernelIdeal.Gen Idealize.ShloMosaic Idealize.ShloMosaic.TcCoe Idealize.SL.Sem

/-- Every weakly fair execution of the kernel's program terminates with its first result at the logits of the two
    argument arrays, its second at the constant `2`, and the argument arrays unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v1)
          = Cert.Gate.logits (m ((c.tc : Thread nD τ).loc main_arg0)) (m ((c.tc : Thread nD τ).loc main_arg1))
      ∧ r.2.mem ((c.tc : Thread nD τ).loc main_c) = constantI S_ 32 2#32
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (by
      rw [final m c]
      exact Cert.Gate.transpose_logitsT _ _ _), (h c).2⟩)
    (Cert.KernelIdeal.Tail.run_named (F := Ideal) m ρ)

end Cert.KernelIdeal.GateValue

end
-- ==== Proof.lean ====
/-
  A linear gate's logits: a tiled kernel against `x @ W.T`.

  The kernel computes `W · xᵀ` (shape `[64, 32768]`) eight column blocks at a time — at grid point `t` the product
  of the whole `W` (`[64, 768]`) with rows `4096·t … 4096·t + 4095` of `x`, contracting the two arrays' second
  axes from a zero accumulator — and then transposes the result; the reference transposes `W` and forms `x · Wᵀ`
  with one matrix product. Both programs also return the integer constant `2`.
  On the extended reals the two first results agree entry by entry: at row `r` and expert `e` the kernel holds
  `∑ d, W[e, d] * x[r, d]` and the reference `∑ d, x[r, d] * W[e, d]`, the same sum in the same order with each
  product commuted. No distributivity or cancellation is used, so the finiteness of the inputs is never opened.
  The steps: `GateSpec` states the logits in both layouts and that transposing one gives the other; `RefValue`
  reads the reference's product entry by entry as the logits; `KernelBlocks` shows that each block the kernel writes
  is the matching block of `W · xᵀ` and that the eight blocks tile the output; `KernelTail` reads the transpose and
  the constant that follow the region; `KernelRun` joins these into the kernel's results.
  The idealization rewrote no operation, so `preserves` is `True`.
-/
import proofs.«119512_g55542517072588_cont_9to1c4b_208_9_alg».proof.Defs
import proofs.«119512_g55542517072588_cont_9to1c4b_208_9_alg».proof.Proof.Gen.Kernel
import proofs.«119512_g55542517072588_cont_9to1c4b_208_9_alg».proof.Proof.Gen.Kernel.Skeleton
import proofs.«119512_g55542517072588_cont_9to1c4b_208_9_alg».proof.Proof.Gen.Kernel.Launch
import proofs.«119512_g55542517072588_cont_9to1c4b_208_9_alg».proof.Proof.Gen.Kernel.Points
import proofs.«119512_g55542517072588_cont_9to1c4b_208_9_alg».proof.Proof.Gen.Kernel.Frame
import proofs.«119512_g55542517072588_cont_9to1c4b_208_9_alg».proof.Proof.Gen.KernelIdeal
import proofs.«119512_g55542517072588_cont_9to1c4b_208_9_alg».proof.Proof.Gen.KernelIdeal.Skeleton
import proofs.«119512_g55542517072588_cont_9to1c4b_208_9_alg».proof.Proof.Gen.KernelIdeal.Launch
import proofs.«119512_g55542517072588_cont_9to1c4b_208_9_alg».proof.Proof.Gen.KernelIdeal.Points
import proofs.«119512_g55542517072588_cont_9to1c4b_208_9_alg».proof.Proof.Gen.KernelIdeal.Frame
import proofs.«119512_g55542517072588_cont_9to1c4b_208_9_alg».proof.Proof.Gen.ReferenceIdeal
import proofs.«119512_g55542517072588_cont_9to1c4b_208_9_alg».proof.Proof.Gen.ReferenceIdeal.Run
import proofs.«119512_g55542517072588_cont_9to1c4b_208_9_alg».proof.Proof.Gen.ReferenceIdeal.Read
import proofs.«119512_g55542517072588_cont_9to1c4b_208_9_alg».proof.Proof.Gen.Pre_finite_inputs
import Idealize.ShloMosaic.Adequacy
import Idealize.ShloMosaic.Init
import proofs.«119512_g55542517072588_cont_9to1c4b_208_9_alg».proof.Proof.RefValue
import proofs.«119512_g55542517072588_cont_9to1c4b_208_9_alg».proof.Proof.KernelRun

noncomputable section

namespace Cert.Proof

open Idealize.ShloMosaic Idealize.SL.Sem

/-- The word-level kernel terminates on every weakly fair execution and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on `x` and `W`, both programs end with the logits `x · Wᵀ` of those arrays in their
    first result and the constant `2` in their second: the kernel by its blocks and its final transpose, the
    reference by its one product. -/
theorem algebraic : Cert.algebraic_KernelIdeal_ReferenceIdeal := by
  intro m ρ m' ρ' _ hagree
  refine ⟨fun c => Cert.Gate.logits (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun _ => constantI Cert.KernelIdeal.S_ 32 2#32, Cert.KernelIdeal.GateValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.RefValue.val_eq_logits, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
